-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 92
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x1, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S1x64, .f32⟩
  | .hbm, ⟨91, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v62) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x800000, .i32⟩
  | 74 => ⟨S800000, .i32⟩
  | 75 => ⟨S1x800000, .i32⟩
  | 76 => ⟨S800000, .i32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .i1⟩
  | 86 => ⟨S_, .f32⟩
  | 87 => ⟨S50000, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x1, .f32⟩
  | 124 => ⟨S800000x128, .f32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v60 : Ref sig .tc := ⟨.hbm, 93, rfl⟩
abbrev main_c_15 : Ref sig .tc := ⟨.hbm, 94, rfl⟩
abbrev main_v61 : Ref sig .tc := ⟨.hbm, 95, rfl⟩
abbrev main_v62 : Ref sig .tc := ⟨.hbm, 96, rfl⟩
abbrev main_c_16 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_c_18 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_19 : Ref sig .tc := ⟨.hbm, 114, rfl⟩
abbrev main_v77 : Ref sig .tc := ⟨.hbm, 115, rfl⟩
abbrev main_v78 : Ref sig .tc := ⟨.hbm, 116, rfl⟩
abbrev main_c_20 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call3_cst : Ref sig .tc := ⟨.hbm, 133, rfl⟩
abbrev main_call3_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call4_cst : Ref sig .tc := ⟨.hbm, 140, rfl⟩
abbrev main_call4_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call5_cst : Ref sig .tc := ⟨.hbm, 147, rfl⟩
abbrev main_call5_v0 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run, with the result buffer read back: from any memory with zero counters every weakly
  fair execution of @main terminates without a fault; in the final state the result buffer holds what the last
  region's write-backs left in it (the fold through @main's thirteen segments at that buffer) and every argument
  array holds what it was launched with. The same launch over the same segments proves the frame; here one more
  buffer is read off the final thread state.
-/
import proofs.«127747_j34273839022398_1_alg».proof.Proof.Gen.KernelIdeal.Frame

set_option maxRecDepth 16384

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v64) = W13 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v64 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Arrays

end
-- ==== Proof.Keeps.lean ====
/-
  Each stretch of host operations between two regions writes only its own result buffers; every other buffer holds
  after the stretch what it held before. One statement per stretch, for any buffer outside the stretch's list.
-/
import proofs.«127747_j34273839022398_1_alg».proof.Proof.Gen.KernelIdeal.Frame

set_option maxRecDepth 16384

noncomputable section

namespace Cert.KernelIdeal.Arrays

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers `hostOps0` writes. -/
abbrev written_hostOps0 : List (Ref sig .tc) := [main_v0, main_v1, main_v2, main_v3, main_cst, main_v4, main_cst_0, main_v5, main_v6, main_v7, main_cst_1, main_v8, main_v9, main_cst_2, main_v10, main_v11, main_v12, main_cst_3]

theorem writes_hostOps0 : (hostOps0 : List (HloOp τ sig (Elt F))).Forall fun op =>
    op.writes ⊆ ((written_hostOps0).map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W1_keep (c : Dev nD) (b : Ref sig .tc) (hb : b ∉ written_hostOps0) :
    W1 m ρ c (Proc.devRef .tc b) = W0 m ρ c (Proc.devRef .tc b) :=
  StableHlo.after_of_writes_sub hostOps0 (W0 m ρ c) writes_hostOps0 hb

/-- The buffers `hostOps0_1` writes. -/
abbrev written_hostOps0_1 : List (Ref sig .tc) := [main_call0_v0, main_call0_v1, main_v13]

theorem writes_hostOps0_1 : (hostOps0_1 : List (HloOp τ sig (Elt F))).Forall fun op =>
    op.writes ⊆ ((written_hostOps0_1).map (Proc.devRef (τ := τ) .tc)).toFinset := by
  simp only [hostOps0_1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W2_keep (c : Dev nD) (b : Ref sig .tc) (hb : b ∉ written_hostOps0_1) :
    W2 m ρ c (Proc.devRef .tc b) = W1 m ρ c (Proc.devRef .tc b) :=
  StableHlo.after_of_writes_sub hostOps0_1 (W1 m ρ c) writes_hostOps0_1 hb

/-- The buffers `hostOps0_2` writes. -/
abbrev written_hostOps0_2 : List (Ref sig .tc) := [main_c, main_v14, main_v15, main_c_4, main_v16, main_v17, main_v18, main_v19, main_v20, main_c_5, main_v21, main_v22, main_c_6, main_v23, main_v24, main_v25, main_v26, main_v27, main_v28]

theorem writes_hostOps0_2 : (hostOps0_2 : List (HloOp τ sig (Elt F))).Forall fun op =>
    op.writes ⊆ ((written_hostOps0_2).map (Proc.devRef (τ := τ) .tc)).toFinset := by
  simp only [hostOps0_2, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W3_keep (c : Dev nD) (b : Ref sig .tc) (hb : b ∉ written_hostOps0_2) :
    W3 m ρ c (Proc.devRef .tc b) = W2 m ρ c (Proc.devRef .tc b) :=
  StableHlo.after_of_writes_sub hostOps0_2 (W2 m ρ c) writes_hostOps0_2 hb

/-- The buffers `hostOps1` writes. -/
abbrev written_hostOps1 : List (Ref sig .tc) := [main_c_7, main_v30, main_v31, main_c_8, main_v32, main_v33, main_v34, main_v35, main_v36, main_v37, main_v38, main_v39, main_cst_9, main_v40, main_v41, main_v42, main_v43]

theorem writes_hostOps1 : (hostOps1 : List (HloOp τ sig (Elt F))).Forall fun op =>
    op.writes ⊆ ((written_hostOps1).map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W5_keep (c : Dev nD) (b : Ref sig .tc) (hb : b ∉ written_hostOps1) :
    W5 m ρ c (Proc.devRef .tc b) = W4 m ρ c (Proc.devRef .tc b) :=
  StableHlo.after_of_writes_sub hostOps1 (W4 m ρ c) writes_hostOps1 hb

/-- The buffers `hostOps3` writes. -/
abbrev written_hostOps3 : List (Ref sig .tc) := [main_c_10, main_v46, main_v47, main_c_11, main_v48, main_v49, main_v50, main_v51, main_v52, main_v53, main_v54, main_v55, main_cst_12, main_v56, main_v57, main_v58, main_v59]

theorem writes_hostOps3 : (hostOps3 : List (HloOp τ sig (Elt F))).Forall fun op =>
    op.writes ⊆ ((written_hostOps3).map (Proc.devRef (τ := τ) .tc)).toFinset := by
  simp only [hostOps3, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W8_keep (c : Dev nD) (b : Ref sig .tc) (hb : b ∉ written_hostOps3) :
    W8 m ρ c (Proc.devRef .tc b) = W7 m ρ c (Proc.devRef .tc b) :=
  StableHlo.after_of_writes_sub hostOps3 (W7 m ρ c) writes_hostOps3 hb

/-- The buffers `hostOps4` writes. -/
abbrev written_hostOps4 : List (Ref sig .tc) := [main_v61]

theorem writes_hostOps4 : (hostOps4 : List (HloOp τ sig (Elt F))).Forall fun op =>
    op.writes ⊆ ((written_hostOps4).map (Proc.devRef (τ := τ) .tc)).toFinset := by
  simp only [hostOps4, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W10_keep (c : Dev nD) (b : Ref sig .tc) (hb : b ∉ written_hostOps4) :
    W10 m ρ c (Proc.devRef .tc b) = W9 m ρ c (Proc.devRef .tc b) :=
  StableHlo.after_of_writes_sub hostOps4 (W9 m ρ c) writes_hostOps4 hb

/-- The buffers `hostOps5` writes. -/
abbrev written_hostOps5 : List (Ref sig .tc) := [main_v63]

theorem writes_hostOps5 : (hostOps5 : List (HloOp τ sig (Elt F))).Forall fun op =>
    op.writes ⊆ ((written_hostOps5).map (Proc.devRef (τ := τ) .tc)).toFinset := by
  simp only [hostOps5, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer the stretch does not write holds after it what it held before. -/
theorem W12_keep (c : Dev nD) (b : Ref sig .tc) (hb : b ∉ written_hostOps5) :
    W12 m ρ c (Proc.devRef .tc b) = W11 m ρ c (Proc.devRef .tc b) :=
  StableHlo.after_of_writes_sub hostOps5 (W11 m ρ c) writes_hostOps5 hb

end Cert.KernelIdeal.Arrays

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«127747_j34273839022398_1_alg».proof.Proof.LibDotEntry
import proofs.«127747_j34273839022398_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.Layers.lean ====
/-
  The four kinds of layer of a two-layer graph convolution followed by a two-layer perceptron, each as the host
  computes it on whole arrays and as a TensorCore body computes it on one block of 5000 rows, read at an entry.

  Host, on the whole [50000, ·] arrays: the product a·w; the rectified bias sum max(a + b, 0) with the length-n bias laid
  out as a [1, n] row and repeated down the rows. Kernel, on a block of 5000 rows: the product of the block by the whole
  weight matrix into a zero accumulator (its two factors first rounded to a narrower format, which at exact arithmetic
  is the identity); the block plus the [1, n] bias row repeated down the rows, then the maximum with zero; and the two
  fused. Row P of a product depends on row P of the left factor only, and the bias sum and the rectifier are pointwise,
  so a block's result at (p, q) is the whole array's result at (P, q) whenever row p of the block is row P of the array:
  the statements below, one per kernel body.
-/
import proofs.«127747_j34273839022398_1_alg».proof.Defs
import proofs.«127747_j34273839022398_1_alg».proof.Proof.Gen.KernelIdeal.Skeleton
import proofs.«127747_j34273839022398_1_alg».proof.Proof.Gen.ReferenceIdeal
import proofs.«127747_j34273839022398_1_alg».proof.Proof.LibDenseLayer
import Idealize.ShloMosaic.Lib.IdealHost
import Idealize.ShloMosaic.Lib.ValueLayout

noncomputable section

namespace Cert.Gcn

open Idealize.ShloMosaic Idealize.ShloMosaic.TcCoe Idealize.SL.Sem Idealize.ShloMosaic.ValueIdx

/-! ## The host's stages, in the reference program's spelling -/

section Host
open Cert.ReferenceIdeal Cert.ReferenceIdeal.Gen

/-- The host's product of the [50000, 128] activations by a [128, 128] weight matrix. -/
def hostMM (a : FVec Ideal S50000x128 .f32) (w : FVec Ideal S128x128 .f32) : FVec Ideal S50000x128 .f32 :=
  Host.dotGeneral (F := Ideal) dot_S50000x128_S128x128_S50000x128_1_0_0_1_n_n none a w

/-- The host's product of the [50000, 128] activations by the [128, 64] weight matrix of the last layer. -/
def hostMM64 (a : FVec Ideal S50000x128 .f32) (w : FVec Ideal S128x64 .f32) : FVec Ideal S50000x64 .f32 :=
  Host.dotGeneral (F := Ideal) dot_S50000x128_S128x64_S50000x64_1_0_0_1_n_n none a w

/-- The host's rectified bias sum max(a + b, 0) over [50000, 128]. -/
def hostBiasRelu (a : FVec Ideal S50000x128 .f32) (b : FVec Ideal S128 .f32) : FVec Ideal S50000x128 .f32 :=
  maximumf (addf a (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The host's rectified bias sum max(a + b, 0) over [50000, 64]. -/
def hostBiasRelu64 (a : FVec Ideal S50000x64 .f32) (b : FVec Ideal S64 .f32) : FVec Ideal S50000x64 .f32 :=
  maximumf (addf a (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

theorem isMat128 : Cert.Lib.DenseLayer.IsMatProduct (m := 50000) (K := 128) (n := 128) dot_S50000x128_S128x128_S50000x128_1_0_0_1_n_n :=
  ⟨rfl, rfl, rfl, rfl, rfl, rfl⟩
theorem isMat64 : Cert.Lib.DenseLayer.IsMatProduct (m := 50000) (K := 128) (n := 64) dot_S50000x128_S128x64_S50000x64_1_0_0_1_n_n :=
  ⟨rfl, rfl, rfl, rfl, rfl, rfl⟩

/-- Entry (P, q) of the host's product: the sum over k of a(P, k)·w(k, q). -/
theorem hostMM_entry (a : FVec Ideal S50000x128 .f32) (w : FVec Ideal S128x128 .f32) (P : Fin 50000) (q : Fin 128) :
    hostMM a w (ix2 P q) = ∑ k : Fin 128, a (ix2 P k) * w (ix2 k q) :=
  Cert.Lib.DenseLayer.dotGeneral_entry isMat128 a w P q

theorem hostMM64_entry (a : FVec Ideal S50000x128 .f32) (w : FVec Ideal S128x64 .f32) (P : Fin 50000) (q : Fin 64) :
    hostMM64 a w (ix2 P q) = ∑ k : Fin 128, a (ix2 P k) * w (ix2 k q) :=
  Cert.Lib.DenseLayer.dotGeneral_entry isMat64 a w P q

/-- Entry (P, q) of the host's rectified bias sum: max(a(P, q) + b(q), 0). -/
theorem hostBiasRelu_entry (a : FVec Ideal S50000x128 .f32) (b : FVec Ideal S128 .f32) (P : Fin 50000) (q : Fin 128) :
    hostBiasRelu a b (ix2 P q) = max (a (ix2 P q) + b (ix1 q)) 0 := by
  unfold hostBiasRelu
  rw [maximumf_apply, addf_apply, Cert.Lib.DenseLayer.host_bias_entry, broadcastInDim_scalar_apply, constant_apply,
    Ideal.ofBits_zero_f32]

theorem hostBiasRelu64_entry (a : FVec Ideal S50000x64 .f32) (b : FVec Ideal S64 .f32) (P : Fin 50000) (q : Fin 64) :
    hostBiasRelu64 a b (ix2 P q) = max (a (ix2 P q) + b (ix1 q)) 0 := by
  unfold hostBiasRelu64
  rw [maximumf_apply, addf_apply, Cert.Lib.DenseLayer.host_bias_entry, broadcastInDim_scalar_apply, constant_apply,
    Ideal.ofBits_zero_f32]

end Host

/-! ## The kernel bodies on one block, at an entry -/

section Kernel
open Cert.KernelIdeal Cert.KernelIdeal.Gen

theorem isMatBlock128 : Cert.Lib.DenseLayer.IsMatProduct (m := 5000) (K := 128) (n := 128) dot_S5000x128_S128x128_S5000x128_1_0_0_1_n_n :=
  ⟨rfl, rfl, rfl, rfl, rfl, rfl⟩
theorem isMatBlock64 : Cert.Lib.DenseLayer.IsMatProduct (m := 5000) (K := 128) (n := 64) dot_S5000x128_S128x64_S5000x64_1_0_0_1_n_n :=
  ⟨rfl, rfl, rfl, rfl, rfl, rfl⟩

/-- The product body (first layer): entry (p, q) of the block's product. -/
theorem pay0_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) :=
  Cert.Lib.DenseLayer.matmul_entry isMatBlock128 (truncf .bf16 x0 bitsLt_bf16_f32) (truncf .bf16 x1 bitsLt_bf16_f32) p q

/-- The product body (second layer): the same, behind a cast of the block to its own shape. -/
theorem pay2_entry (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  have e : shapeCast S5000x128 x0 shapeCasts_S5000x128_S5000x128 = x0 := shapeCast_self x0 _
  refine (Cert.Lib.DenseLayer.matmul_entry isMatBlock128
    (truncf .bf16 (shapeCast S5000x128 x0 shapeCasts_S5000x128_S5000x128) bitsLt_bf16_f32) (truncf .bf16 x1 bitsLt_bf16_f32) p q).trans ?_
  refine Finset.sum_congr rfl fun k _ => ?_
  exact congrArg (fun y : Vec Ideal S5000x128 .f32 => y (ix2 p k) * x1 (ix2 k q)) e

/-- The rectified bias sum body: entry (p, q) is max(x(p, q) + row(0, q), 0). -/
theorem biasRelu_block_entry (x0 : Vec Ideal S5000x128 .f32) (x1 : Vec Ideal S1x128 .f32) (p : Fin 5000) (q : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p q)
      = max (x0 (ix2 p q) + x1 (ix2 (0 : Fin 1) q)) 0 := by
  rw [maximumf_apply, addf_apply, shapeCast_self, shapeCast_self, broadcastTo_1b_ab_apply, broadcast_apply]
  exact congrArg (max _) Ideal.ofBits_zero_f32

theorem pay1_entry (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 :=
  biasRelu_block_entry x0 x1 p q

theorem pay3_entry (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) 0 :=
  biasRelu_block_entry x0 x1 p q

/-- The block's product for the [128, 64] weights of the last layer, behind a cast of the block to its own shape. -/
theorem mm64_block_entry (x0 : Vec Ideal S5000x128 .f32) (x1 : Vec Ideal S128x64 .f32) (p : Fin 5000) (q : Fin 64) :
    matmul dot_S5000x128_S128x64_S5000x64_1_0_0_1_n_n none
        (truncf .bf16 (shapeCast S5000x128 x0 shapeCasts_S5000x128_S5000x128) bitsLt_bf16_f32) (truncf .bf16 x1 bitsLt_bf16_f32)
        (constant (F := Ideal) S5000x64 .f32 0x00000000#32) (ix2 p q)
      = ∑ k : Fin 128, x0 (ix2 p k) * x1 (ix2 k q) := by
  have e : shapeCast S5000x128 x0 shapeCasts_S5000x128_S5000x128 = x0 := shapeCast_self x0 _
  refine (Cert.Lib.DenseLayer.matmul_entry isMatBlock64
    (truncf .bf16 (shapeCast S5000x128 x0 shapeCasts_S5000x128_S5000x128) bitsLt_bf16_f32) (truncf .bf16 x1 bitsLt_bf16_f32) p q).trans ?_
  refine Finset.sum_congr rfl fun k _ => ?_
  exact congrArg (fun y : Vec Ideal S5000x128 .f32 => y (ix2 p k) * x1 (ix2 k q)) e

/-- The fused body (product, bias row, rectifier) over 128 columns at entry (p, q). -/
theorem pay4_entry (x0 : Vec Ideal S5000x128 .f32) (x1 : Vec Ideal S128x128 .f32) (x2 : Vec Ideal S1x128 .f32) (p : Fin 5000) (q : Fin 128) :
    k4_pay1 (F := Ideal) x0 x1 x2 (ix2 p q)
      = max ((∑ k : Fin 128, x0 (ix2 p k) * x1 (ix2 k q)) + x2 (ix2 (0 : Fin 1) q)) 0 := by
  have h : k4_pay1 (F := Ideal) x0 x1 x2 (ix2 p q)
      = max (k2_pay1 (F := Ideal) x0 x1 (ix2 p q)
          + broadcastTo S5000x128 (shapeCast S1x128 x2 shapeCasts_S1x128_S1x128) broadcasts_S1x128_S5000x128 (ix2 p q))
        (Ideal.ofBits .f32 0x00000000#32) := rfl
  rw [h, pay2_entry, shapeCast_self, broadcastTo_1b_ab_apply, Ideal.ofBits_zero_f32]

/-- The fused body over the last layer's 64 columns at entry (p, q). -/
theorem pay5_entry (x0 : Vec Ideal S5000x128 .f32) (x1 : Vec Ideal S128x64 .f32) (x2 : Vec Ideal S1x64 .f32) (p : Fin 5000) (q : Fin 64) :
    k5_pay1 (F := Ideal) x0 x1 x2 (ix2 p q)
      = max ((∑ k : Fin 128, x0 (ix2 p k) * x1 (ix2 k q)) + x2 (ix2 (0 : Fin 1) q)) 0 := by
  have h : k5_pay1 (F := Ideal) x0 x1 x2 (ix2 p q)
      = max (matmul dot_S5000x128_S128x64_S5000x64_1_0_0_1_n_n none
            (truncf .bf16 (shapeCast S5000x128 x0 shapeCasts_S5000x128_S5000x128) bitsLt_bf16_f32) (truncf .bf16 x1 bitsLt_bf16_f32)
            (constant (F := Ideal) S5000x64 .f32 0x00000000#32) (ix2 p q)
          + broadcastTo S5000x64 (shapeCast S1x64 x2 shapeCasts_S1x64_S1x64) broadcasts_S1x64_S5000x64 (ix2 p q))
        (Ideal.ofBits .f32 0x00000000#32) := rfl
  rw [h, mm64_block_entry, shapeCast_self, broadcastTo_1b_ab_apply, Ideal.ofBits_zero_f32]

end Kernel

/-! ## A block's result is the whole array's result on the block's rows -/

section Blocks
open Cert.KernelIdeal Cert.KernelIdeal.Gen

/-- max(a + row, 0) with a [1, n] bias row, over [50000, 128]: what the rectified bias sum computes from the row the
    kernel is handed. -/
def rowBiasRelu (A : FVec Ideal S50000x128 .f32) (r : FVec Ideal S1x128 .f32) : FVec Ideal S50000x128 .f32 :=
  fun i => max (A i + r (ix2 (0 : Fin 1) (i 1))) 0

/-- The same over [50000, 64]. -/
def rowBiasRelu64 (A : FVec Ideal S50000x64 .f32) (r : FVec Ideal S1x64 .f32) : FVec Ideal S50000x64 .f32 :=
  fun i => max (A i + r (ix2 (0 : Fin 1) (i 1))) 0

/-- With the row a cast of the length-128 bias, it is the host's rectified bias sum. -/
theorem rowBiasRelu_cast (A : FVec Ideal S50000x128 .f32) (b : FVec Ideal S128 .f32) (h : S128.ShapeCasts S1x128) :
    rowBiasRelu A (shapeCast S1x128 b h) = hostBiasRelu A b := by
  funext i
  obtain ⟨P, q, rfl⟩ : ∃ (P : Fin 50000) (q : Fin 128), i = ix2 P q := ⟨i 0, i 1, eq_ix2 i⟩
  rw [hostBiasRelu_entry]
  show max (A (ix2 P q) + shapeCast S1x128 b h (ix2 (0 : Fin 1) q)) 0 = _
  rw [shapeCast_a_1a_apply]

theorem rowBiasRelu64_cast (A : FVec Ideal S50000x64 .f32) (b : FVec Ideal S64 .f32) (h : S64.ShapeCasts S1x64) :
    rowBiasRelu64 A (shapeCast S1x64 b h) = hostBiasRelu64 A b := by
  funext i
  obtain ⟨P, q, rfl⟩ : ∃ (P : Fin 50000) (q : Fin 64), i = ix2 P q := ⟨i 0, i 1, eq_ix2 i⟩
  rw [hostBiasRelu64_entry]
  show max (A (ix2 P q) + shapeCast S1x64 b h (ix2 (0 : Fin 1) q)) 0 = _
  rw [shapeCast_a_1a_apply]

/-- Product body, first layer: where row j₀ of the block is row i₀ of the array and the weights are the whole matrix,
    the block's entry j is the whole product's entry i (same column). -/
theorem mm_block0 (X : FVec Ideal S50000x128 .f32) (W : FVec Ideal S128x128 .f32)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k0_pay1 (F := Ideal) x0 x1 j = hostMM X W i :=
  (congrArg (k0_pay1 (F := Ideal) x0 x1) (eq_ix2 j)).trans <| (pay0_entry x0 x1 (j 0) (j 1)).trans <|
    (Finset.sum_congr rfl fun k _ => by rw [h0 k, h1 k]).trans <|
    (hostMM_entry X W (i 0) (i 1)).symm.trans (congrArg (hostMM X W) (eq_ix2 i).symm)

/-- Product body, second layer. -/
theorem mm_block2 (X : FVec Ideal S50000x128 .f32) (W : FVec Ideal S128x128 .f32)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k2_pay1 (F := Ideal) x0 x1 j = hostMM X W i :=
  (congrArg (k2_pay1 (F := Ideal) x0 x1) (eq_ix2 j)).trans <| (pay2_entry x0 x1 (j 0) (j 1)).trans <|
    (Finset.sum_congr rfl fun k _ => by rw [h0 k, h1 k]).trans <|
    (hostMM_entry X W (i 0) (i 1)).symm.trans (congrArg (hostMM X W) (eq_ix2 i).symm)

/-- Rectified bias sum body, first layer: pointwise in the block, the row read at the entry's column. -/
theorem biasRelu_block1 (A : FVec Ideal S50000x128 .f32) (r : FVec Ideal S1x128 .f32)
    (x0 : Vec Ideal S5000x128 .f32) (x1 : Vec Ideal S1x128 .f32) (j : S5000x128.Idx) (i : S50000x128.Idx)
    (h0 : x0 (ix2 (j 0) (j 1)) = A i) (h1 : x1 (ix2 (0 : Fin 1) (j 1)) = r (ix2 (0 : Fin 1) (i 1))) :
    k1_pay1 (F := Ideal) x0 x1 j = rowBiasRelu A r i :=
  (congrArg (k1_pay1 (F := Ideal) x0 x1) (eq_ix2 j)).trans <| (pay1_entry x0 x1 (j 0) (j 1)).trans <| by
    rw [h0, h1]; rfl

/-- Rectified bias sum body, second layer. -/
theorem biasRelu_block3 (A : FVec Ideal S50000x128 .f32) (r : FVec Ideal S1x128 .f32)
    (x0 : Vec Ideal S5000x128 .f32) (x1 : Vec Ideal S1x128 .f32) (j : S5000x128.Idx) (i : S50000x128.Idx)
    (h0 : x0 (ix2 (j 0) (j 1)) = A i) (h1 : x1 (ix2 (0 : Fin 1) (j 1)) = r (ix2 (0 : Fin 1) (i 1))) :
    k3_pay1 (F := Ideal) x0 x1 j = rowBiasRelu A r i :=
  (congrArg (k3_pay1 (F := Ideal) x0 x1) (eq_ix2 j)).trans <| (pay3_entry x0 x1 (j 0) (j 1)).trans <| by
    rw [h0, h1]; rfl

/-- Fused body over 128 columns: the rectified bias sum of the whole product, on the block's rows. -/
theorem dense_block4 (X : FVec Ideal S50000x128 .f32) (W : FVec Ideal S128x128 .f32) (r : FVec Ideal S1x128 .f32)
    (x0 : Vec Ideal S5000x128 .f32) (x1 : Vec Ideal S128x128 .f32) (x2 : Vec Ideal S1x128 .f32)
    (j : S5000x128.Idx) (i : S50000x128.Idx)
    (h0 : ∀ k : Fin 128, x0 (ix2 (j 0) k) = X (ix2 (i 0) k))
    (h1 : ∀ k : Fin 128, x1 (ix2 k (j 1)) = W (ix2 k (i 1)))
    (h2 : x2 (ix2 (0 : Fin 1) (j 1)) = r (ix2 (0 : Fin 1) (i 1))) :
    k4_pay1 (F := Ideal) x0 x1 x2 j = rowBiasRelu (hostMM X W) r i :=
  (congrArg (k4_pay1 (F := Ideal) x0 x1 x2) (eq_ix2 j)).trans <| (pay4_entry x0 x1 x2 (j 0) (j 1)).trans <| by
    have hs : (∑ k : Fin 128, x0 (ix2 (j 0) k) * x1 (ix2 k (j 1))) = hostMM X W i :=
      (Finset.sum_congr rfl fun k _ => by rw [h0 k, h1 k]).trans <|
        (hostMM_entry X W (i 0) (i 1)).symm.trans (congrArg (hostMM X W) (eq_ix2 i).symm)
    rw [hs, h2]; rfl

/-- Fused body over the last layer's 64 columns. -/
theorem dense_block5 (X : FVec Ideal S50000x128 .f32) (W : FVec Ideal S128x64 .f32) (r : FVec Ideal S1x64 .f32)
    (x0 : Vec Ideal S5000x128 .f32) (x1 : Vec Ideal S128x64 .f32) (x2 : Vec Ideal S1x64 .f32)
    (j : S5000x64.Idx) (i : S50000x64.Idx)
    (h0 : ∀ k : Fin 128, x0 (ix2 (j 0) k) = X (ix2 (i 0) k))
    (h1 : ∀ k : Fin 128, x1 (ix2 k (j 1)) = W (ix2 k (i 1)))
    (h2 : x2 (ix2 (0 : Fin 1) (j 1)) = r (ix2 (0 : Fin 1) (i 1))) :
    k5_pay1 (F := Ideal) x0 x1 x2 j = rowBiasRelu64 (hostMM64 X W) r i :=
  (congrArg (k5_pay1 (F := Ideal) x0 x1 x2) (eq_ix2 j)).trans <| (pay5_entry x0 x1 x2 (j 0) (j 1)).trans <| by
    have hs : (∑ k : Fin 128, x0 (ix2 (j 0) k) * x1 (ix2 k (j 1))) = hostMM64 X W i :=
      (Finset.sum_congr rfl fun k _ => by rw [h0 k, h1 k]).trans <|
        (hostMM64_entry X W (i 0) (i 1)).symm.trans (congrArg (hostMM64 X W) (eq_ix2 i).symm)
    rw [hs, h2]; rfl

end Blocks

end Cert.Gcn

end
-- ==== Proof.Region0.lean ====
/-
  First layer's product region: the [50000, 128] result array after the run of its ten grid points is the whole
  product of the activations by the weights.

  Point t stages rows 5000·t … 5000·t + 4999 of the activations (all 128 columns) and the whole weight matrix, and
  writes back rows 5000·t … of the result. Row P of a product depends on row P of the left factor only, so what point
  t writes back is exactly block t of the whole product; the ten blocks tile the 50000 rows (row P is in block P / 5000).
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the activations' and the result's block row is the point's number, every other
    block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t
      = ((cfg0.win 2).blk t).view.read (Elt Ideal) (Cert.Gcn.hostMM (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts0 t
  funext j
  show k0_pay1 (iblk0 V c 0 t) (iblk0 V c 1 t) j
    = Cert.Gcn.hostMM (V c main_arg0) (V c main_arg2) (((cfg0.win 2).blk t).view.emb j)
  refine Cert.Gcn.mm_block0 (V c main_arg0) (V c main_arg2) (iblk0 V c 0 t) (iblk0 V c 1 t) j
    (((cfg0.win 2).blk t).view.emb j) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Every index of the result array is in some point's block: row P in block P / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := idx_facts0 t
  have e4' : win0_2.index t (0 : Fin 2) = (i 0).val / 5000 := e4
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the whole product of the arrays the region found. -/
theorem final0 (c : Dev nD) :
    (dat0 V c).arrAt 2 cfg0.N = Cert.Gcn.hostMM (V c main_arg0) (V c main_arg2) :=
  (dat0 V c).arrAt_eq_of_cover 2 _ (fun t _ => flushed0 V c t) cover0

end Cert.KernelIdeal.Arrays

end
-- ==== Proof.Region1.lean ====
/-
  First layer's bias-and-rectifier region: the [50000, 128] result array after the run of its ten grid points is
  max(a + row, 0) of the whole aggregated array a and the [1, 128] bias row, entry by entry.

  Point t stages rows 5000·t … 5000·t + 4999 of a and the whole bias row and writes back the same rows of the result;
  the operation is pointwise in a and reads the row at the entry's column, so block t of the result is the operation
  on block t; the ten blocks tile the 50000 rows.
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets1 : (![0, 0] : Fin 2 → Nat) = fun _ => 0 := funext fun a => by fin_cases a <;> rfl

/-- The index maps over the grid: the result's and the row-blocked operand's block row is the point's number, every
    other block index is zero. -/
theorem idx_facts1 : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What point t writes back is block t of the rectified bias sum of the whole array. -/
theorem flushed1 (c : Dev nD) (t : Fin cfg1.N) :
    (dat1 V c).flushed 2 t
      = ((cfg1.win 2).blk t).view.read (Elt Ideal) (Cert.Gcn.rowBiasRelu (V c main_v42) (V c main_v43)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨eo0, eo1, ea0, ea1, eb0, eb1⟩ := idx_facts1 t
  funext j
  show k1_pay1 (iblk1 V c 0 t) (iblk1 V c 1 t) j
    = Cert.Gcn.rowBiasRelu (V c main_v42) (V c main_v43) (((cfg1.win 2).blk t).view.emb j)
  refine Cert.Gcn.biasRelu_block1 (V c main_v42) (V c main_v43) (iblk1 V c 0 t) (iblk1 V c 1 t) j
    (((cfg1.win 2).blk t).view.emb j) ?_ ?_
  · show V c main_v42 (((cfg1.win 0).blk t).view.emb (ix2 (j 0) (j 1)))
      = V c main_v42 (((cfg1.win 2).blk t).view.emb j)
    refine congrArg (V c main_v42) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v43 (((cfg1.win 1).blk t).view.emb (ix2 (0 : Fin 1) (j 1)))
      = V c main_v43 (ix2 (0 : Fin 1) ((((cfg1.win 2).blk t).view.emb j) 1))
    refine congrArg (V c main_v43) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Every index of the result array is in some point's block: row P in block P / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  have hf := idx_facts1 t
  have eo0 : win1_2.index t (0 : Fin 2) = (i 0).val / 5000 := hf.1
  have eo1 : win1_2.index t (1 : Fin 2) = 0 := hf.2.1
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the region, as one function of the arrays the region found. -/
theorem final1 (c : Dev nD) :
    (dat1 V c).arrAt 2 cfg1.N = Cert.Gcn.rowBiasRelu (V c main_v42) (V c main_v43) :=
  (dat1 V c).arrAt_eq_of_cover 2 _ (fun t _ => flushed1 V c t) cover1

end Cert.KernelIdeal.Arrays

end
-- ==== Proof.Region2.lean ====
/-
  Second layer's product region: the [50000, 128] result array after the run of its ten grid points is the whole
  product of the activations by the weights.

  Point t stages rows 5000·t … 5000·t + 4999 of the activations (all 128 columns) and the whole weight matrix, and
  writes back rows 5000·t … of the result. Row P of a product depends on row P of the left factor only, so what point
  t writes back is exactly block t of the whole product; the ten blocks tile the 50000 rows (row P is in block P / 5000).
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets2 : (![0, 0] : Fin 2 → Nat) = fun _ => 0 := funext fun a => by fin_cases a <;> rfl

/-- The index maps over the grid: the result's and the row-blocked operand's block row is the point's number, every
    other block index is zero. -/
theorem idx_facts2 : ∀ t : Fin cfg2.N,
    win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point t writes back is block t of the whole product. -/
theorem flushed2 (c : Dev nD) (t : Fin cfg2.N) :
    (dat2 V c).flushed 2 t
      = ((cfg2.win 2).blk t).view.read (Elt Ideal) (Cert.Gcn.hostMM (V c main_v44) (V c main_arg4)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨eo0, eo1, ea0, ea1, eb0, eb1⟩ := idx_facts2 t
  funext j
  show k2_pay1 (iblk2 V c 0 t) (iblk2 V c 1 t) j
    = Cert.Gcn.hostMM (V c main_v44) (V c main_arg4) (((cfg2.win 2).blk t).view.emb j)
  refine Cert.Gcn.mm_block2 (V c main_v44) (V c main_arg4) (iblk2 V c 0 t) (iblk2 V c 1 t) j
    (((cfg2.win 2).blk t).view.emb j) (fun k => ?_) (fun k => ?_)
  · show V c main_v44 (((cfg2.win 0).blk t).view.emb (ix2 (j 0) k))
      = V c main_v44 (ix2 ((((cfg2.win 2).blk t).view.emb j) 0) k)
    refine congrArg (V c main_v44) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg4 (((cfg2.win 1).blk t).view.emb (ix2 k (j 1)))
      = V c main_arg4 (ix2 k ((((cfg2.win 2).blk t).view.emb j) 1))
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the result array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v45).slice (win2_2.rect t)).set ↔ _
  rw [View.set_slice_whole, Rect.mem_set_unit]
  exact Iff.rfl

/-- Every index of the result array is in some point's block: row P in block P / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  have hf := idx_facts2 t
  have eo0 : win2_2.index t (0 : Fin 2) = (i 0).val / 5000 := hf.1
  have eo1 : win2_2.index t (1 : Fin 2) = 0 := hf.2.1
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The result array after the region, as one function of the arrays the region found. -/
theorem final2 (c : Dev nD) :
    (dat2 V c).arrAt 2 cfg2.N = Cert.Gcn.hostMM (V c main_v44) (V c main_arg4) :=
  (dat2 V c).arrAt_eq_of_cover 2 _ (fun t _ => flushed2 V c t) cover2

end Cert.KernelIdeal.Arrays

end
-- ==== Proof.Region3.lean ====
/-
  Second layer's bias-and-rectifier region: the [50000, 128] result array after the run of its ten grid points is
  max(a + row, 0) of the whole aggregated array a and the [1, 128] bias row, entry by entry.

  Point t stages rows 5000·t … 5000·t + 4999 of a and the whole bias row and writes back the same rows of the result;
  the operation is pointwise in a and reads the row at the entry's column, so block t of the result is the operation
  on block t; the ten blocks tile the 50000 rows.
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets3 : (![0, 0] : Fin 2 → Nat) = fun _ => 0 := funext fun a => by fin_cases a <;> rfl

/-- The index maps over the grid: the result's and the row-blocked operand's block row is the point's number, every
    other block index is zero. -/
theorem idx_facts3 : ∀ t : Fin cfg3.N,
    win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- What point t writes back is block t of the rectified bias sum of the whole array. -/
theorem flushed3 (c : Dev nD) (t : Fin cfg3.N) :
    (dat3 V c).flushed 2 t
      = ((cfg3.win 2).blk t).view.read (Elt Ideal) (Cert.Gcn.rowBiasRelu (V c main_v58) (V c main_v59)) := by
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S1x128) zero_offsets3]
  obtain ⟨eo0, eo1, ea0, ea1, eb0, eb1⟩ := idx_facts3 t
  funext j
  show k3_pay1 (iblk3 V c 0 t) (iblk3 V c 1 t) j
    = Cert.Gcn.rowBiasRelu (V c main_v58) (V c main_v59) (((cfg3.win 2).blk t).view.emb j)
  refine Cert.Gcn.biasRelu_block3 (V c main_v58) (V c main_v59) (iblk3 V c 0 t) (iblk3 V c 1 t) j
    (((cfg3.win 2).blk t).view.emb j) ?_ ?_
  · show V c main_v58 (((cfg3.win 0).blk t).view.emb (ix2 (j 0) (j 1)))
      = V c main_v58 (((cfg3.win 2).blk t).view.emb j)
    refine congrArg (V c main_v58) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  · show V c main_v59 (((cfg3.win 1).blk t).view.emb (ix2 (0 : Fin 1) (j 1)))
      = V c main_v59 (ix2 (0 : Fin 1) ((((cfg3.win 2).blk t).view.emb j) 1))
    refine congrArg (V c main_v59) (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega

/-- An index of the result array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- Every index of the result array is in some point's block: row P in block P / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  have hf := idx_facts3 t
  have eo0 : win3_2.index t (0 : Fin 2) = (i 0).val / 5000 := hf.1
  have eo1 : win3_2.index t (1 : Fin 2) = 0 := hf.2.1
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The result array after the region, as one function of the arrays the region found. -/
theorem final3 (c : Dev nD) :
    (dat3 V c).arrAt 2 cfg3.N = Cert.Gcn.rowBiasRelu (V c main_v58) (V c main_v59) :=
  (dat3 V c).arrAt_eq_of_cover 2 _ (fun t _ => flushed3 V c t) cover3

end Cert.KernelIdeal.Arrays

end
-- ==== Proof.Region4.lean ====
/-
  First dense layer's region (product, bias row, rectifier, fused): the [50000, 128] result array after the run of
  its ten grid points is max(a·w + row, 0) of the whole activations a, the weights w and the [1, 128] bias row.

  Point t stages rows 5000·t … 5000·t + 4999 of a, the whole of w and of the row, and writes back the same rows of the
  result. Row P of the product depends on row P of a only and the rest is pointwise, so block t of the result is the
  layer on block t; the ten blocks tile the 50000 rows.
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets4 : (![0, 0] : Fin 2 → Nat) = fun _ => 0 := funext fun a => by fin_cases a <;> rfl

/-- The index maps over the grid: the result's and the row-blocked operand's block row is the point's number, every
    other block index is zero. -/
theorem idx_facts4 : ∀ t : Fin cfg4.N,
    win4_3.index t (0 : Fin 2) = t.val ∧ win4_3.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What point t writes back is block t of the rectified dense layer of the whole array. -/
theorem flushed4 (c : Dev nD) (t : Fin cfg4.N) :
    (dat4 V c).flushed 3 t
      = ((cfg4.win 3).blk t).view.read (Elt Ideal)
          (Cert.Gcn.rowBiasRelu (Cert.Gcn.hostMM (V c main_v60) (V c main_arg6)) (V c main_v61)) := by
  show (cfg4.win 3).cut (grid4.coords t) ((dat4 V c).after 3 t) = _
  rw [after4_3]
  unfold out4_3
  rw [View.canon_unit_zero zero_offsets4]
  simp only [View.ld_unit_zero (S := S5000x128) zero_offsets4, View.ld_unit_zero (S := S128x128) zero_offsets4,
    View.ld_unit_zero (S := S1x128) zero_offsets4]
  obtain ⟨eo0, eo1, ea0, ea1, eb0, eb1, ec0, ec1⟩ := idx_facts4 t
  funext j
  show k4_pay1 (iblk4 V c 0 t) (iblk4 V c 1 t) (iblk4 V c 2 t) j
    = Cert.Gcn.rowBiasRelu (Cert.Gcn.hostMM (V c main_v60) (V c main_arg6)) (V c main_v61) (((cfg4.win 3).blk t).view.emb j)
  refine Cert.Gcn.dense_block4 (V c main_v60) (V c main_arg6) (V c main_v61) (iblk4 V c 0 t) (iblk4 V c 1 t) (iblk4 V c 2 t) j
    (((cfg4.win 3).blk t).view.emb j) (fun k => ?_) (fun k => ?_) ?_
  · show V c main_v60 (((cfg4.win 0).blk t).view.emb (ix2 (j 0) k))
      = V c main_v60 (ix2 ((((cfg4.win 3).blk t).view.emb j) 0) k)
    refine congrArg (V c main_v60) (funext fun a => Fin.ext ?_)
    match a with
    | ⟨0, _⟩ =>
      show win4_0.index t (0 : Fin 2) * 5000 + 1 * (j 0).val = win4_3.index t (0 : Fin 2) * 5000 + 1 * (j 0).val
      omega
    | ⟨1, _⟩ =>
      show win4_0.index t (1 : Fin 2) * 128 + 1 * k.val = k.val
      omega
  · show V c main_arg6 (((cfg4.win 1).blk t).view.emb (ix2 k (j 1)))
      = V c main_arg6 (ix2 k ((((cfg4.win 3).blk t).view.emb j) 1))
    refine congrArg (V c main_arg6) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_3.index t (1 : Fin 2) * 128 + 1 * (j 1).val
      omega
  · show V c main_v61 (((cfg4.win 2).blk t).view.emb (ix2 (0 : Fin 1) (j 1)))
      = V c main_v61 (ix2 (0 : Fin 1) ((((cfg4.win 3).blk t).view.emb j) 1))
    refine congrArg (V c main_v61) (funext fun a => Fin.ext ?_)
    match a with
    | ⟨0, _⟩ =>
      show win4_2.index t (0 : Fin 2) * 1 + 1 * 0 = 0
      omega
    | ⟨1, _⟩ =>
      show win4_2.index t (1 : Fin 2) * 128 + 1 * (j 1).val = win4_3.index t (1 : Fin 2) * 128 + 1 * (j 1).val
      omega

/-- An index of the result array is in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v62).slice (win4_3.rect t)).set ↔ _
  rw [View.set_slice_whole, Rect.mem_set_unit]
  exact Iff.rfl

/-- Every index of the result array is in some point's block: row P in block P / 5000. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  have hf := idx_facts4 t
  have eo0 : win4_3.index t (0 : Fin 2) = (i 0).val / 5000 := hf.1
  have eo1 : win4_3.index t (1 : Fin 2) = 0 := hf.2.1
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-- The result array after the region, as one function of the arrays the region found. -/
theorem final4 (c : Dev nD) :
    (dat4 V c).arrAt 3 cfg4.N = Cert.Gcn.rowBiasRelu (Cert.Gcn.hostMM (V c main_v60) (V c main_arg6)) (V c main_v61) :=
  (dat4 V c).arrAt_eq_of_cover 3 _ (fun t _ => flushed4 V c t) cover4

end Cert.KernelIdeal.Arrays

end
-- ==== Proof.Region5.lean ====
/-
  Last dense layer's region (product, bias row, rectifier, fused): the [50000, 64] result array after the run of
  its ten grid points is max(a·w + row, 0) of the whole activations a, the weights w and the [1, 64] bias row.

  Point t stages rows 5000·t … 5000·t + 4999 of a, the whole of w and of the row, and writes back the same rows of the
  result. Row P of the product depends on row P of a only and the rest is pointwise, so block t of the result is the
  layer on block t; the ten blocks tile the 50000 rows.
-/
import proofs.«127747_j34273839022398_1_alg».proof.Proof.Gen.KernelIdeal.Frame
import proofs.«127747_j34273839022398_1_alg».proof.Proof.Layers
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets5 : (![0, 0] : Fin 2 → Nat) = fun _ => 0 := funext fun a => by fin_cases a <;> rfl

/-- The index maps over the grid: the result's and the row-blocked operand's block row is the point's number, every
    other block index is zero. -/
theorem idx_facts5 : ∀ t : Fin cfg5.N,
    win5_3.index t (0 : Fin 2) = t.val ∧ win5_3.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What point t writes back is block t of the rectified dense layer of the whole array. -/
theorem flushed5 (c : Dev nD) (t : Fin cfg5.N) :
    (dat5 V c).flushed 3 t
      = ((cfg5.win 3).blk t).view.read (Elt Ideal)
          (Cert.Gcn.rowBiasRelu64 (Cert.Gcn.hostMM64 (V c main_v62) (V c main_arg8)) (V c main_v63)) := by
  show (cfg5.win 3).cut (grid5.coords t) ((dat5 V c).after 3 t) = _
  rw [after5_3]
  unfold out5_3
  rw [View.canon_unit_zero zero_offsets5]
  simp only [View.ld_unit_zero (S := S5000x128) zero_offsets5, View.ld_unit_zero (S := S128x64) zero_offsets5,
    View.ld_unit_zero (S := S1x64) zero_offsets5]
  obtain ⟨eo0, eo1, ea0, ea1, eb0, eb1, ec0, ec1⟩ := idx_facts5 t
  funext j
  show k5_pay1 (iblk5 V c 0 t) (iblk5 V c 1 t) (iblk5 V c 2 t) j
    = Cert.Gcn.rowBiasRelu64 (Cert.Gcn.hostMM64 (V c main_v62) (V c main_arg8)) (V c main_v63) (((cfg5.win 3).blk t).view.emb j)
  refine Cert.Gcn.dense_block5 (V c main_v62) (V c main_arg8) (V c main_v63) (iblk5 V c 0 t) (iblk5 V c 1 t) (iblk5 V c 2 t) j
    (((cfg5.win 3).blk t).view.emb j) (fun k => ?_) (fun k => ?_) ?_
  · show V c main_v62 (((cfg5.win 0).blk t).view.emb (ix2 (j 0) k))
      = V c main_v62 (ix2 ((((cfg5.win 3).blk t).view.emb j) 0) k)
    refine congrArg (V c main_v62) (funext fun a => Fin.ext ?_)
    match a with
    | ⟨0, _⟩ =>
      show win5_0.index t (0 : Fin 2) * 5000 + 1 * (j 0).val = win5_3.index t (0 : Fin 2) * 5000 + 1 * (j 0).val
      omega
    | ⟨1, _⟩ =>
      show win5_0.index t (1 : Fin 2) * 128 + 1 * k.val = k.val
      omega
  · show V c main_arg8 (((cfg5.win 1).blk t).view.emb (ix2 k (j 1)))
      = V c main_arg8 (ix2 k ((((cfg5.win 3).blk t).view.emb j) 1))
    refine congrArg (V c main_arg8) (funext fun a => Fin.ext ?_)
    match a with
    | ⟨0, _⟩ =>
      show win5_1.index t (0 : Fin 2) * 128 + 1 * k.val = k.val
      omega
    | ⟨1, _⟩ =>
      show win5_1.index t (1 : Fin 2) * 64 + 1 * (j 1).val = win5_3.index t (1 : Fin 2) * 64 + 1 * (j 1).val
      omega
  · show V c main_v63 (((cfg5.win 2).blk t).view.emb (ix2 (0 : Fin 1) (j 1)))
      = V c main_v63 (ix2 (0 : Fin 1) ((((cfg5.win 3).blk t).view.emb j) 1))
    refine congrArg (V c main_v63) (funext fun a => Fin.ext ?_)
    match a with
    | ⟨0, _⟩ =>
      show win5_2.index t (0 : Fin 2) * 1 + 1 * 0 = 0
      omega
    | ⟨1, _⟩ =>
      show win5_2.index t (1 : Fin 2) * 64 + 1 * (j 1).val = win5_3.index t (1 : Fin 2) * 64 + 1 * (j 1).val
      omega

/-- An index of the result array is in point t's block iff each coordinate is in the block's range on its axis. -/
theorem mem_blk5 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v64).slice (win5_3.rect t)).set ↔ _
  rw [View.set_slice_whole, Rect.mem_set_unit]
  exact Iff.rfl

/-- Every index of the result array is in some point's block: row P in block P / 5000. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; omega⟩
  have hf := idx_facts5 t
  have eo0 : win5_3.index t (0 : Fin 2) = (i 0).val / 5000 := hf.1
  have eo1 : win5_3.index t (1 : Fin 2) = 0 := hf.2.1
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 64 ≤ (i 1).val ∧ (i 1).val < win5_3.index t (1 : Fin 2) * 64 + 64
    omega

/-- The result array after the region, as one function of the arrays the region found. -/
theorem final5 (c : Dev nD) :
    (dat5 V c).arrAt 3 cfg5.N = Cert.Gcn.rowBiasRelu64 (Cert.Gcn.hostMM64 (V c main_v62) (V c main_arg8)) (V c main_v63) :=
  (dat5 V c).arrAt_eq_of_cover 3 _ (fun t _ => flushed5 V c t) cover5

end Cert.KernelIdeal.Arrays

end
-- ==== Proof.Glue.lean ====
/-
  The host side of a graph convolution, as the reference program spells it, in named pieces.

  From the [2, 800000] edge list: its two rows (sources, targets); an index word wrapped the way an indexing
  expression wraps a negative index (i + 50000 where i < 0); the in-degree of every node (a scatter-add of ones at the
  targets); its inverse square root where the degree is positive and zero elsewhere; the edge weight
  dinv(source)·dinv(target). An aggregation takes a [50000, 128] array h, gathers its rows at the sources, scales row e
  by the weight of edge e and scatter-adds the rows at the targets. The network is two rounds of
  (product, aggregation, bias, rectifier) followed by two dense rectified layers.
-/
import proofs.«127747_j34273839022398_1_alg».proof.Proof.Layers

noncomputable section

namespace Cert.Gcn

open Idealize.ShloMosaic Idealize.ShloMosaic.TcCoe Idealize.SL.Sem
open Cert.ReferenceIdeal Cert.ReferenceIdeal.Gen

/-- The edges' sources: row 0 of the edge list. -/
def rowOf (ei : IVec S2x800000 32) : IVec S800000 32 :=
  shapeCast _ (extractStridedSlice S1x800000 ![0, 0] ei slices_S2x800000_S1x800000_0_0) shapeCasts_S1x800000_S800000

/-- The edges' targets: row 1 of the edge list. -/
def colOf (ei : IVec S2x800000 32) : IVec S800000 32 :=
  shapeCast _ (extractStridedSlice S1x800000 ![1, 0] ei slices_S2x800000_S1x800000_1_0) shapeCasts_S1x800000_S800000

/-- An index word with a negative value moved up by the node count. -/
def wrapIdx (r : IVec S800000 32) : IVec S800000 32 :=
  select (cmpi .slt r (broadcastInDim S800000 ![] bcast_S_S800000 (constantI S_ 32 0#32))) (addi r (broadcastInDim S800000 ![] bcast_S_S800000 (constantI S_ 32 50000#32))) r

/-- Every node's in-degree: ones scatter-added at the targets. -/
def degOf (ei : IVec S2x800000 32) : FVec Ideal S50000 .f32 :=
  Host.scatterAdd scatter_S50000_S800000x1_S800000_n_0_0_1 (broadcastInDim S50000 ![] bcast_S_S50000 (constant (F := Ideal) S_ .f32 0x00000000#32)) (broadcastInDim S800000x1 ![0] bcast_S800000_S800000x1_0 (colOf ei)) (broadcastInDim S800000 ![] bcast_S_S800000 (constant (F := Ideal) S_ .f32 0x3F800000#32))

/-- deg^(-1/2) where the degree is positive, zero elsewhere. -/
def dinvOf (ei : IVec S2x800000 32) : FVec Ideal S50000 .f32 :=
  select (cmpf (F := Ideal) .ogt (degOf ei) (broadcastInDim S50000 ![] bcast_S_S50000 (constant (F := Ideal) S_ .f32 0x00000000#32))) (Host.rsqrt (maximumf (degOf ei) (broadcastInDim S50000 ![] bcast_S_S50000 (constant (F := Ideal) S_ .f32 0x3F800000#32)))) (broadcastInDim S50000 ![] bcast_S_S50000 (id (constant (F := Ideal) S_ .f32 0x00000000#32)))

/-- The weight of every edge: dinv at its source times dinv at its target. -/
def normOf (ei : IVec S2x800000 32) : FVec Ideal S800000 .f32 :=
  mulf (Host.gather gather_S50000_S800000x1_S800000_n_0_n_n_0_1_1 (dinvOf ei) (broadcastInDim S800000x1 ![0] bcast_S800000_S800000x1_0 (wrapIdx (rowOf ei)))) (Host.gather gather_S50000_S800000x1_S800000_n_0_n_n_0_1_1 (dinvOf ei) (broadcastInDim S800000x1 ![0] bcast_S800000_S800000x1_0 (wrapIdx (colOf ei))))

/-- The aggregation from its four operands: rows of `h` gathered at the wrapped sources, scaled by the edge
    weights, scatter-added at the targets. -/
def aggOf (h : FVec Ideal S50000x128 .f32) (row col : IVec S800000 32)
    (nrm : FVec Ideal S800000 .f32) : FVec Ideal S50000x128 .f32 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 col) (mulf (Host.gather gather_S50000x128_S800000x1_S800000x128_1_0_n_n_0_1_1128 h (broadcastInDim S800000x1 ![0] bcast_S800000_S800000x1_0 (wrapIdx row))) (broadcastInDim S800000x128 ![0, 1] bcast_S800000x1_S800000x128_0_1 (broadcastInDim S800000x1 ![0] bcast_S800000_S800000x1_0 nrm)))

/-- The aggregation of `h` over the edge list. -/
def agg (h : FVec Ideal S50000x128 .f32) (ei : IVec S2x800000 32) :
    FVec Ideal S50000x128 .f32 :=
  aggOf h (rowOf ei) (colOf ei) (normOf ei)

/-- One graph-convolution layer: product, aggregation, bias, rectifier. -/
def gcnLayer (h : FVec Ideal S50000x128 .f32) (ei : IVec S2x800000 32)
    (w : FVec Ideal S128x128 .f32) (b : FVec Ideal S128 .f32) : FVec Ideal S50000x128 .f32 :=
  hostBiasRelu (agg (hostMM h w) ei) b

/-- One dense rectified layer over 128 columns. -/
def denseLayer (h : FVec Ideal S50000x128 .f32) (w : FVec Ideal S128x128 .f32) (b : FVec Ideal S128 .f32) : FVec Ideal S50000x128 .f32 :=
  hostBiasRelu (hostMM h w) b

/-- The last dense rectified layer, to 64 columns. -/
def denseLayer64 (h : FVec Ideal S50000x128 .f32) (w : FVec Ideal S128x64 .f32) (b : FVec Ideal S64 .f32) : FVec Ideal S50000x64 .f32 :=
  hostBiasRelu64 (hostMM64 h w) b

/-- The whole network on the ten argument arrays. -/
def network (x : FVec Ideal S50000x128 .f32) (ei : IVec S2x800000 32)
    (w1 : FVec Ideal S128x128 .f32) (b1 : FVec Ideal S128 .f32) (w2 : FVec Ideal S128x128 .f32) (b2 : FVec Ideal S128 .f32)
    (wf1 : FVec Ideal S128x128 .f32) (bf1 : FVec Ideal S128 .f32) (wf2 : FVec Ideal S128x64 .f32) (bf2 : FVec Ideal S64 .f32) : FVec Ideal S50000x64 .f32 :=
  denseLayer64 (denseLayer (gcnLayer (gcnLayer x ei w1 b1) ei w2 b2) wf1 bf1) wf2 bf2

end Cert.Gcn

end
-- ==== Proof.Fold.lean ====
/-
  What the idealized kernel program leaves in its result buffer, as one function of the ten argument arrays: the
  network. The buffer contents are followed through @main's segments. A stretch of host operations leaves in each
  buffer it writes the operations' value of what was there before, and every other buffer alone; a region leaves in
  its result array the layer (product, or bias and rectifier, or both) of the arrays it found, and every buffer that
  is not one of its arrays alone. The edge list's rows, the edge weights and every argument array are written once
  (or never) before the first region and only read afterwards.
-/
import proofs.«127747_j34273839022398_1_alg».proof.Proof.Keeps
import proofs.«127747_j34273839022398_1_alg».proof.Proof.Region0
import proofs.«127747_j34273839022398_1_alg».proof.Proof.Region1
import proofs.«127747_j34273839022398_1_alg».proof.Proof.Region2
import proofs.«127747_j34273839022398_1_alg».proof.Proof.Region3
import proofs.«127747_j34273839022398_1_alg».proof.Proof.Region4
import proofs.«127747_j34273839022398_1_alg».proof.Proof.Region5
import proofs.«127747_j34273839022398_1_alg».proof.Proof.Glue
import Idealize.ShloMosaic.Lib.StableHlo.Run

set_option maxRecDepth 16384

noncomputable section

namespace Cert.KernelIdeal.Arrays

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-! ## Buffers nothing touches between two points of @main -/

/-- A buffer the three opening stretches do not write holds at the first region's entry what it was launched with. -/
theorem W3_launch (b : Ref sig .tc) (h0 : b ∉ written_hostOps0) (h1 : b ∉ written_hostOps0_1) (h2 : b ∉ written_hostOps0_2) :
    W3 m ρ c (Proc.devRef .tc b) = m ((c : Thread nD τ).loc b) :=
  (W3_keep m ρ c b h2).trans ((W2_keep m ρ c b h1).trans ((W1_keep m ρ c b h0).trans rfl))

/-- Not an array of the first region: unchanged by it. -/
theorem W4_W3 (b : Ref sig .tc) (h : ∀ w, Pipeline.arrRef spec0 w ≠ b) :
    W4 m ρ c (Proc.devRef .tc b) = W3 m ρ c (Proc.devRef .tc b) := W4_of_ne m ρ c b h

/-- Unchanged up to the third region's entry. -/
theorem W6_W3 (b : Ref sig .tc) (h0 : ∀ w, Pipeline.arrRef spec0 w ≠ b) (h1 : b ∉ written_hostOps1)
    (h2 : ∀ w, Pipeline.arrRef spec1 w ≠ b) : W6 m ρ c (Proc.devRef .tc b) = W3 m ρ c (Proc.devRef .tc b) :=
  (W6_of_ne m ρ c b h2).trans ((W5_keep m ρ c b h1).trans (W4_W3 m ρ c b h0))

/-- Unchanged up to the third region's exit. -/
theorem W7_W3 (b : Ref sig .tc) (h0 : ∀ w, Pipeline.arrRef spec0 w ≠ b) (h1 : b ∉ written_hostOps1)
    (h2 : ∀ w, Pipeline.arrRef spec1 w ≠ b) (h3 : ∀ w, Pipeline.arrRef spec2 w ≠ b) :
    W7 m ρ c (Proc.devRef .tc b) = W3 m ρ c (Proc.devRef .tc b) :=
  (W7_of_ne m ρ c b h3).trans (W6_W3 m ρ c b h0 h1 h2)

/-- Unchanged up to the fourth region's exit. -/
theorem W9_W3 (b : Ref sig .tc) (h0 : ∀ w, Pipeline.arrRef spec0 w ≠ b) (h1 : b ∉ written_hostOps1)
    (h2 : ∀ w, Pipeline.arrRef spec1 w ≠ b) (h3 : ∀ w, Pipeline.arrRef spec2 w ≠ b) (h4 : b ∉ written_hostOps3)
    (h5 : ∀ w, Pipeline.arrRef spec3 w ≠ b) : W9 m ρ c (Proc.devRef .tc b) = W3 m ρ c (Proc.devRef .tc b) :=
  (W9_of_ne m ρ c b h5).trans ((W8_keep m ρ c b h4).trans (W7_W3 m ρ c b h0 h1 h2 h3))

/-- Unchanged up to the fifth region's exit. -/
theorem W11_W3 (b : Ref sig .tc) (h0 : ∀ w, Pipeline.arrRef spec0 w ≠ b) (h1 : b ∉ written_hostOps1)
    (h2 : ∀ w, Pipeline.arrRef spec1 w ≠ b) (h3 : ∀ w, Pipeline.arrRef spec2 w ≠ b) (h4 : b ∉ written_hostOps3)
    (h5 : ∀ w, Pipeline.arrRef spec3 w ≠ b) (h6 : b ∉ written_hostOps4) (h7 : ∀ w, Pipeline.arrRef spec4 w ≠ b) :
    W11 m ρ c (Proc.devRef .tc b) = W3 m ρ c (Proc.devRef .tc b) :=
  (W11_of_ne m ρ c b h7).trans ((W10_keep m ρ c b h6).trans (W9_W3 m ρ c b h0 h1 h2 h3 h4 h5))

/-! ## Before the first region: the edge list's rows and the edge weights -/

theorem W1_row : W1 m ρ c (Proc.devRef .tc main_v1) = rowOf (m ((c : Thread nD τ).loc main_arg1)) := by
  show StableHlo.after hostOps0 (W0 m ρ c) (Proc.devRef .tc main_v1) = _
  after_results_simp
  rfl

theorem W1_col : W1 m ρ c (Proc.devRef .tc main_v3) = colOf (m ((c : Thread nD τ).loc main_arg1)) := by
  show StableHlo.after hostOps0 (W0 m ρ c) (Proc.devRef .tc main_v3) = _
  after_results_simp
  rfl

theorem W2_row : W2 m ρ c (Proc.devRef .tc main_v1) = rowOf (m ((c : Thread nD τ).loc main_arg1)) :=
  (W2_keep m ρ c main_v1 (by decide)).trans (W1_row m ρ c)

theorem W2_col : W2 m ρ c (Proc.devRef .tc main_v3) = colOf (m ((c : Thread nD τ).loc main_arg1)) :=
  (W2_keep m ρ c main_v3 (by decide)).trans (W1_col m ρ c)

theorem W3_row : W3 m ρ c (Proc.devRef .tc main_v1) = rowOf (m ((c : Thread nD τ).loc main_arg1)) :=
  (W3_keep m ρ c main_v1 (by decide)).trans (W2_row m ρ c)

theorem W3_col : W3 m ρ c (Proc.devRef .tc main_v3) = colOf (m ((c : Thread nD τ).loc main_arg1)) :=
  (W3_keep m ρ c main_v3 (by decide)).trans (W2_col m ρ c)

/-- The degree is positive: a vector of bits, from the first stretch. -/
theorem W1_positive : W1 m ρ c (Proc.devRef .tc main_v9)
    = cmpf (F := Ideal) .ogt (degOf (m ((c : Thread nD τ).loc main_arg1))) (broadcastInDim S50000 ![] bcast_S_S50000 (constant (F := Ideal) S_ .f32 0x00000000#32)) := by
  show StableHlo.after hostOps0 (W0 m ρ c) (Proc.devRef .tc main_v9) = _
  after_results_simp
  rfl

/-- The inverse root of max(degree, 1), from the first stretch. -/
theorem W1_invroot : W1 m ρ c (Proc.devRef .tc main_v12)
    = Host.rsqrt (maximumf (degOf (m ((c : Thread nD τ).loc main_arg1))) (broadcastInDim S50000 ![] bcast_S_S50000 (constant (F := Ideal) S_ .f32 0x3F800000#32))) := by
  show StableHlo.after hostOps0 (W0 m ρ c) (Proc.devRef .tc main_v12) = _
  after_results_simp
  rfl

/-- The zero the selection falls back to. -/
theorem W1_zero : W1 m ρ c (Proc.devRef .tc main_cst_3) = constant (F := Ideal) S_ .f32 0x00000000#32 := by
  show StableHlo.after hostOps0 (W0 m ρ c) (Proc.devRef .tc main_cst_3) = _
  after_results_simp

/-- After the call that selects between the inverse root and zero: the degree normalisation. The called function's
    three operations move each operand from its buffer's type to the value's type and the result back; with the
    operands named these moves are the identity. -/
theorem W2_dinv : W2 m ρ c (Proc.devRef .tc main_v13) = dinvOf (m ((c : Thread nD τ).loc main_arg1)) := by
  have h9 := W1_positive m ρ c
  have h12 := W1_invroot m ρ c
  have h3 := W1_zero m ρ c
  show StableHlo.after hostOps0_1 (W1 m ρ c) (Proc.devRef .tc main_v13) = _
  generalize W1 m ρ c = V1 at h9 h12 h3 ⊢
  after_results_simp
  show select (V1 (Proc.devRef .tc main_v9)) (V1 (Proc.devRef .tc main_v12))
    (broadcastInDim S50000 ![] bcast_S_S50000 (id (V1 (Proc.devRef .tc main_cst_3)))) = _
  rw [h9, h12, h3]
  rfl

/-- The third stretch reads the normalisation and the two rows, and leaves the edge weights. -/
theorem W3_norm : W3 m ρ c (Proc.devRef .tc main_v28) = normOf (m ((c : Thread nD τ).loc main_arg1)) := by
  have hd := W2_dinv m ρ c
  have hr := W2_row m ρ c
  have hc := W2_col m ρ c
  show StableHlo.after hostOps0_2 (W2 m ρ c) (Proc.devRef .tc main_v28) = _
  generalize W2 m ρ c = V2 at hd hr hc ⊢
  after_results_simp
  rw [hd, hr, hc]
  rfl

/-! ## First graph-convolution layer -/

/-- The first region's result: the product of the node features by the first weights. -/
theorem W4_product : W4 m ρ c (Proc.devRef .tc main_v29)
    = hostMM (m ((c : Thread nD τ).loc main_arg0)) (m ((c : Thread nD τ).loc main_arg2)) :=
  (W4_arr m ρ c 2).trans ((final0 (V3 m ρ) c).trans (congr (congrArg hostMM
    (W3_launch m ρ c main_arg0 (by decide) (by decide) (by decide)))
    (W3_launch m ρ c main_arg2 (by decide) (by decide) (by decide))))

/-- The stretch after it: the aggregation of that product over the edge list. -/
theorem W5_agg : W5 m ρ c (Proc.devRef .tc main_v42)
    = agg (hostMM (m ((c : Thread nD τ).loc main_arg0)) (m ((c : Thread nD τ).loc main_arg2))) (m ((c : Thread nD τ).loc main_arg1)) := by
  show StableHlo.after hostOps1 (W4 m ρ c) (Proc.devRef .tc main_v42) = _
  after_results_simp
  rw [W4_product m ρ c, (W4_W3 m ρ c main_v1 (by decide)).trans (W3_row m ρ c),
    (W4_W3 m ρ c main_v3 (by decide)).trans (W3_col m ρ c), (W4_W3 m ρ c main_v28 (by decide)).trans (W3_norm m ρ c)]
  rfl

/-- … and the first bias as a [1, 128] row. -/
theorem W5_bias : W5 m ρ c (Proc.devRef .tc main_v43)
    = shapeCast S1x128 (m ((c : Thread nD τ).loc main_arg3)) shapeCasts_S128_S1x128 := by
  show StableHlo.after hostOps1 (W4 m ρ c) (Proc.devRef .tc main_v43) = _
  after_results_simp
  rw [(W4_W3 m ρ c main_arg3 (by decide)).trans (W3_launch m ρ c main_arg3 (by decide) (by decide) (by decide))]
  rfl

/-- The second region's result: the first layer's output. -/
theorem W6_layer1 : W6 m ρ c (Proc.devRef .tc main_v44)
    = gcnLayer (m ((c : Thread nD τ).loc main_arg0)) (m ((c : Thread nD τ).loc main_arg1))
        (m ((c : Thread nD τ).loc main_arg2)) (m ((c : Thread nD τ).loc main_arg3)) :=
  (W6_arr m ρ c 2).trans ((final1 (V5 m ρ) c).trans
    ((congr (congrArg rowBiasRelu (W5_agg m ρ c)) (W5_bias m ρ c)).trans (rowBiasRelu_cast _ _ _)))

/-! ## Second graph-convolution layer -/

/-- The third region's result: the product of the first layer's output by the second weights. -/
theorem W7_product : W7 m ρ c (Proc.devRef .tc main_v45)
    = hostMM (gcnLayer (m ((c : Thread nD τ).loc main_arg0)) (m ((c : Thread nD τ).loc main_arg1))
        (m ((c : Thread nD τ).loc main_arg2)) (m ((c : Thread nD τ).loc main_arg3))) (m ((c : Thread nD τ).loc main_arg4)) :=
  (W7_arr m ρ c 2).trans ((final2 (V6 m ρ) c).trans (congr (congrArg hostMM (W6_layer1 m ρ c))
    ((W6_W3 m ρ c main_arg4 (by decide) (by decide) (by decide)).trans
      (W3_launch m ρ c main_arg4 (by decide) (by decide) (by decide)))))

theorem W8_agg : W8 m ρ c (Proc.devRef .tc main_v58)
    = agg (hostMM (gcnLayer (m ((c : Thread nD τ).loc main_arg0)) (m ((c : Thread nD τ).loc main_arg1))
        (m ((c : Thread nD τ).loc main_arg2)) (m ((c : Thread nD τ).loc main_arg3))) (m ((c : Thread nD τ).loc main_arg4)))
        (m ((c : Thread nD τ).loc main_arg1)) := by
  show StableHlo.after hostOps3 (W7 m ρ c) (Proc.devRef .tc main_v58) = _
  after_results_simp
  rw [W7_product m ρ c,
    (W7_W3 m ρ c main_v1 (by decide) (by decide) (by decide) (by decide)).trans (W3_row m ρ c),
    (W7_W3 m ρ c main_v3 (by decide) (by decide) (by decide) (by decide)).trans (W3_col m ρ c),
    (W7_W3 m ρ c main_v28 (by decide) (by decide) (by decide) (by decide)).trans (W3_norm m ρ c)]
  rfl

theorem W8_bias : W8 m ρ c (Proc.devRef .tc main_v59)
    = shapeCast S1x128 (m ((c : Thread nD τ).loc main_arg5)) shapeCasts_S128_S1x128 := by
  show StableHlo.after hostOps3 (W7 m ρ c) (Proc.devRef .tc main_v59) = _
  after_results_simp
  rw [(W7_W3 m ρ c main_arg5 (by decide) (by decide) (by decide) (by decide)).trans
    (W3_launch m ρ c main_arg5 (by decide) (by decide) (by decide))]
  rfl

/-- The fourth region's result: the second layer's output. -/
theorem W9_layer2 : W9 m ρ c (Proc.devRef .tc main_v60)
    = gcnLayer (gcnLayer (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5)) :=
  (W9_arr m ρ c 2).trans ((final3 (V8 m ρ) c).trans
    ((congr (congrArg rowBiasRelu (W8_agg m ρ c)) (W8_bias m ρ c)).trans (rowBiasRelu_cast _ _ _)))

/-! ## The two dense layers -/

theorem W10_bias : W10 m ρ c (Proc.devRef .tc main_v61)
    = shapeCast S1x128 (m ((c : Thread nD τ).loc main_arg7)) shapeCasts_S128_S1x128 := by
  show StableHlo.after hostOps4 (W9 m ρ c) (Proc.devRef .tc main_v61) = _
  after_results_simp
  rw [(W9_W3 m ρ c main_arg7 (by decide) (by decide) (by decide) (by decide) (by decide) (by decide)).trans
    (W3_launch m ρ c main_arg7 (by decide) (by decide) (by decide))]
  rfl

/-- The fifth region's result: the first dense layer of the second layer's output. -/
theorem W11_dense1 : W11 m ρ c (Proc.devRef .tc main_v62)
    = denseLayer (gcnLayer (gcnLayer (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5)))
        (m ((c : Thread nD τ).loc main_arg6)) (m ((c : Thread nD τ).loc main_arg7)) :=
  (W11_arr m ρ c 3).trans ((final4 (V10 m ρ) c).trans
    ((congr (congrArg rowBiasRelu (congr (congrArg hostMM ((W10_keep m ρ c main_v60 (by decide)).trans (W9_layer2 m ρ c)))
        ((W10_keep m ρ c main_arg6 (by decide)).trans
          ((W9_W3 m ρ c main_arg6 (by decide) (by decide) (by decide) (by decide) (by decide) (by decide)).trans
            (W3_launch m ρ c main_arg6 (by decide) (by decide) (by decide))))))
      (W10_bias m ρ c)).trans (rowBiasRelu_cast _ _ _)))

theorem W12_bias : W12 m ρ c (Proc.devRef .tc main_v63)
    = shapeCast S1x64 (m ((c : Thread nD τ).loc main_arg9)) shapeCasts_S64_S1x64 := by
  show StableHlo.after hostOps5 (W11 m ρ c) (Proc.devRef .tc main_v63) = _
  after_results_simp
  rw [(W11_W3 m ρ c main_arg9 (by decide) (by decide) (by decide) (by decide) (by decide) (by decide) (by decide) (by decide)).trans
    (W3_launch m ρ c main_arg9 (by decide) (by decide) (by decide))]
  rfl

/-- The last region's result, which is @main's: the network of the ten argument arrays. -/
theorem W13_result : W13 m ρ c (Proc.devRef .tc main_v64)
    = network (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) :=
  (W13_arr m ρ c 3).trans ((final5 (V12 m ρ) c).trans
    ((congr (congrArg rowBiasRelu64 (congr (congrArg hostMM64 ((W12_keep m ρ c main_v62 (by decide)).trans (W11_dense1 m ρ c)))
        ((W12_keep m ρ c main_arg8 (by decide)).trans
          ((W11_W3 m ρ c main_arg8 (by decide) (by decide) (by decide) (by decide) (by decide) (by decide) (by decide) (by decide)).trans
            (W3_launch m ρ c main_arg8 (by decide) (by decide) (by decide))))))
      (W12_bias m ρ c)).trans (rowBiasRelu64_cast _ _ _)))

end Cert.KernelIdeal.Arrays

end
-- ==== Proof.RefTerm.lean ====
/-
  The reference program's result, as its run states it, is the network of the argument arrays: the run's term is the
  named pieces written out, so the two unfold to the same expression.
-/
import proofs.«127747_j34273839022398_1_alg».proof.Proof.RefRun
import proofs.«127747_j34273839022398_1_alg».proof.Proof.Glue

set_option maxRecDepth 16384

noncomputable section

namespace Cert.Gcn

open Idealize.ShloMosaic Idealize.ShloMosaic.TcCoe Idealize.SL.Sem
open Cert.ReferenceIdeal Cert.ReferenceIdeal.Gen

theorem reference_result (m : (ℓ : Loc nD τ sig) → Buf (Elt Ideal) ℓ) (c : Dev nD) :
    Cert.ReferenceIdeal.ValueP.res_main_v103 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v103 network denseLayer64 denseLayer gcnLayer agg aggOf normOf dinvOf degOf wrapIdx rowOf colOf
    hostBiasRelu64 hostBiasRelu hostMM64 hostMM
  rfl

end Cert.Gcn

end
-- ==== Proof.lean ====
/-
  A two-layer graph convolution followed by a two-layer perceptron, computed by six TensorCore regions among stretches
  of host operations, against the same network written with host operations only.

  At exact arithmetic the two programs compute one function of the ten argument arrays. Every region works on blocks
  of 5000 rows: a product's row depends on the same row of its left factor only, and bias and rectifier are pointwise,
  so the ten blocks a region writes back are the ten row blocks of the whole-array layer the reference computes with
  one dot_general (Region0 … Region5 over Layers). The host operations between the regions — the edge list's rows,
  the degree normalisation, the gathers and scatter-adds of the two aggregations — are the reference's own, operation
  for operation; the reference merely recomputes the edge weights for its second layer. Following the result buffer
  through @main's segments (Fold) gives the kernel's result as the network of the arguments; the reference's run states
  its result as the same network written out (RefTerm). No law of the extended reals is needed beyond reading both
  products as the same finite sum, so the precondition is not used.

  The three frames: the two kernel programs' are the generated frame certificates; the reference's is its run with the
  result dropped. The idealization rewrote nothing, so `preserves` is trivial.
-/
import proofs.«127747_j34273839022398_1_alg».proof.Defs
import proofs.«127747_j34273839022398_1_alg».proof.Proof.Gen.Kernel
import proofs.«127747_j34273839022398_1_alg».proof.Proof.Gen.Kernel.Frame
import proofs.«127747_j34273839022398_1_alg».proof.Proof.Gen.KernelIdeal
import proofs.«127747_j34273839022398_1_alg».proof.Proof.Gen.KernelIdeal.Frame
import proofs.«127747_j34273839022398_1_alg».proof.Proof.Gen.ReferenceIdeal
import proofs.«127747_j34273839022398_1_alg».proof.Proof.Gen.Pre_finite_inputs
import proofs.«127747_j34273839022398_1_alg».proof.Proof.KernelRun
import proofs.«127747_j34273839022398_1_alg».proof.Proof.Fold
import proofs.«127747_j34273839022398_1_alg».proof.Proof.RefRun
import proofs.«127747_j34273839022398_1_alg».proof.Proof.RefTerm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the argument arrays in their result buffers. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Arrays.W13_result m ρ c), (h c).2⟩)
      (Cert.KernelIdeal.Arrays.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.reference_result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
